-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x32 : Shape := ⟨2, ![4096, 32]⟩
abbrev S32x32 : Shape := ⟨2, ![32, 32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  main_v18

def fn {F : FTy → Type} [FloatOps F] (main_arg0 : FVec F S4096x4096 .f32) (main_arg1 : FVec F S4096x32 .f32) (main_arg2 : FVec F S4096x4096 .f32) (main_arg3 : FVec F S32x32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_v13 main_v16
-- ==== Kernel.lean ====
abbrev S4096x4096 : Shape := ⟨2, ![4096, 4096]⟩
abbrev S4096x32 : Shape := ⟨2, ![4096, 32]⟩
abbrev S32x32 : Shape := ⟨2, ![32, 32]⟩
abbrev S32x128x32 : Shape := ⟨3, ![32, 128, 32]⟩
abbrev S4096x32x128 : Shape := ⟨3, ![4096, 32, 128]⟩
abbrev S512x4096 : Shape := ⟨2, ![512, 4096]⟩
abbrev S512x32 : Shape := ⟨2, ![512, 32]⟩
abbrev S256x4096 : Shape := ⟨2, ![256, 4096]⟩
abbrev S512x256 : Shape := ⟨2, ![512, 256]⟩
abbrev S512x128 : Shape := ⟨2, ![512, 128]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x4096, .f32⟩
  | .hbm, ⟨3, _⟩ => ⟨S32x32, .f32⟩
  | .hbm, ⟨4, _⟩ => ⟨S4096x4096, .bf16⟩
  | .hbm, ⟨5, _⟩ => ⟨S32x128x32, .f32⟩
  | .hbm, ⟨6, _⟩ => ⟨S4096x32, .f32⟩
  | .hbm, ⟨7, _⟩ => ⟨S4096x32x128, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S512x32, .f32⟩
  | .local _ .vmem, ⟨3, _⟩ => ⟨S512x32, .f32⟩
  | .local _ .vmem, ⟨4, _⟩ => ⟨S256x4096, .bf16⟩
  | .local _ .vmem, ⟨5, _⟩ => ⟨S256x4096, .bf16⟩
  | .local _ .vmem, ⟨6, _⟩ => ⟨S512x256, .bf16⟩
  | .local _ .vmem, ⟨7, _⟩ => ⟨S512x256, .bf16⟩
  | .local _ .vmem, ⟨8, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  inb_S512x4096_S512x128_0_0 : ∀ a, (![0, 0] : Fin 2 → Nat) a + S512x128.size a ≤ S512x4096.size a
  h_S512x128 : 0 < S512x128.numel
  shapeCasts_S512x128_S512x128 : S512x128.ShapeCasts S512x128
  inb_S512x32_S512x1_0_0 : ∀ a, (![0, 0] : Fin 2 → Nat) a + S512x1.size a ≤ S512x32.size a
  h_S512x1 : 0 < S512x1.numel
  broadcasts_S512x1_S512x128 : S512x1.Broadcasts S512x128
  packedbf16_S512x4096_S512x128_0_0 : (Rect.unit (s := S512x4096) ![0, 0] S512x128.size inb_S512x4096_S512x128_0_0).PackedRows (EltTy.packing .bf16)
  inb_S512x4096_S512x128_0_128 : ∀ a, (![0, 128] : Fin 2 → Nat) a + S512x128.size a ≤ S512x4096.size a
  inb_S512x32_S512x1_0_1 : ∀ a, (![0, 1] : Fin 2 → Nat) a + S512x1.size a ≤ S512x32.size a
  packedbf16_S512x4096_S512x128_0_128 : (Rect.unit (s := S512x4096) ![0, 128] S512x128.size inb_S512x4096_S512x128_0_128).PackedRows (EltTy.packing .bf16)
  inb_S512x4096_S512x128_0_256 : ∀ a, (![0, 256] : Fin 2 → Nat) a + S512x128.size a ≤ S512x4096.size a
  inb_S512x32_S512x1_0_2 : ∀ a, (![0, 2] : Fin 2 → Nat) a + S512x1.size a ≤ S512x32.size a
  packedbf16_S512x4096_S512x128_0_256 : (Rect.unit (s := S512x4096) ![0, 256] S512x128.size inb_S512x4096_S512x128_0_256).PackedRows (EltTy.packing .bf16)
  inb_S512x4096_S512x128_0_384 : ∀ a, (![0, 384] : Fin 2 → Nat) a + S512x128.size a ≤ S512x4096.size a
  inb_S512x32_S512x1_0_3 : ∀ a, (![0, 3] : Fin 2 → Nat) a + S512x1.size a ≤ S512x32.size a
  packedbf16_S512x4096_S512x128_0_384 : (Rect.unit (s := S512x4096) ![0, 384] S512x128.size inb_S512x4096_S512x128_0_384).PackedRows (EltTy.packing .bf16)
  inb_S512x4096_S512x128_0_512 : ∀ a, (![0, 512] : Fin 2 → Nat) a + S512x128.size a ≤ S512x4096.size a
  inb_S512x32_S512x1_0_4 : ∀ a, (![0, 4] : Fin 2 → Nat) a + S512x1.size a ≤ S512x32.size a
  packedbf16_S512x4096_S512x128_0_512 : (Rect.unit (s := S512x4096) ![0, 512] S512x128.size inb_S512x4096_S512x128_0_512).PackedRows (EltTy.packing .bf16)
  inb_S512x4096_S512x128_0_640 : ∀ a, (![0, 640] : Fin 2 → Nat) a + S512x128.size a ≤ S512x4096.size a
  inb_S512x32_S512x1_0_5 : ∀ a, (![0, 5] : Fin 2 → Nat) a + S512x1.size a ≤ S512x32.size a
  packedbf16_S512x4096_S512x128_0_640 : (Rect.unit (s := S512x4096) ![0, 640] S512x128.size inb_S512x4096_S512x128_0_640).PackedRows (EltTy.packing .bf16)
  inb_S512x4096_S512x128_0_768 : ∀ a, (![0, 768] : Fin 2 → Nat) a + S512x128.size a ≤ S512x4096.size a
  inb_S512x32_S512x1_0_6 : ∀ a, (![0, 6] : Fin 2 → Nat) a + S512x1.size a ≤ S512x32.size a
  packedbf16_S512x4096_S512x128_0_768 : (Rect.unit (s := S512x4096) ![0, 768] S512x128.size inb_S512x4096_S512x128_0_768).PackedRows (EltTy.packing .bf16)
  inb_S512x4096_S512x128_0_896 : ∀ a, (![0, 896] : Fin 2 → Nat) a + S512x128.size a ≤ S512x4096.size a
  inb_S512x32_S512x1_0_7 : ∀ a, (![0, 7] : Fin 2 → Nat) a + S512x1.size a ≤ S512x32.size a
  packedbf16_S512x4096_S512x128_0_896 : (Rect.unit (s := S512x4096) ![0, 896] S512x128.size inb_S512x4096_S512x128_0_896).PackedRows (EltTy.packing .bf16)
  inb_S512x4096_S512x128_0_1024 : ∀ a, (![0, 1024] : Fin 2 → Nat) a + S512x128.size a ≤ S512x4096.size a
  inb_S512x32_S512x1_0_8 : ∀ a, (![0, 8] : Fin 2 → Nat) a + S512x1.size a ≤ S512x32.size a
  packedbf16_S512x4096_S512x128_0_1024 : (Rect.unit (s := S512x4096) ![0, 1024] S512x128.size inb_S512x4096_S512x128_0_1024).PackedRows (EltTy.packing .bf16)
  inb_S512x4096_S512x128_0_1152 : ∀ a, (![0, 1152] : Fin 2 → Nat) a + S512x128.size a ≤ S512x4096.size a
  inb_S512x32_S512x1_0_9 : ∀ a, (![0, 9] : Fin 2 → Nat) a + S512x1.size a ≤ S512x32.size a
  packedbf16_S512x4096_S512x128_0_1152 : (Rect.unit (s := S512x4096) ![0, 1152] S512x128.size inb_S512x4096_S512x128_0_1152).PackedRows (EltTy.packing .bf16)
  inb_S512x4096_S512x128_0_1280 : ∀ a, (![0, 1280] : Fin 2 → Nat) a + S512x128.size a ≤ S512x4096.size a
  inb_S512x32_S512x1_0_10 : ∀ a, (![0, 10] : Fin 2 → Nat) a + S512x1.size a ≤ S512x32.size a
  packedbf16_S512x4096_S512x128_0_1280 : (Rect.unit (s := S512x4096) ![0, 1280] S512x128.size inb_S512x4096_S512x128_0_1280).PackedRows (EltTy.packing .bf16)
  inb_S512x4096_S512x128_0_1408 : ∀ a, (![0, 1408] : Fin 2 → Nat) a + S512x128.size a ≤ S512x4096.size a
  inb_S512x32_S512x1_0_11 : ∀ a, (![0, 11] : Fin 2 → Nat) a + S512x1.size a ≤ S512x32.size a
  packedbf16_S512x4096_S512x128_0_1408 : (Rect.unit (s := S512x4096) ![0, 1408] S512x128.size inb_S512x4096_S512x128_0_1408).PackedRows (EltTy.packing .bf16)
  inb_S512x4096_S512x128_0_1536 : ∀ a, (![0, 1536] : Fin 2 → Nat) a + S512x128.size a ≤ S512x4096.size a
  inb_S512x32_S512x1_0_12 : ∀ a, (![0, 12] : Fin 2 → Nat) a + S512x1.size a ≤ S512x32.size a
  packedbf16_S512x4096_S512x128_0_1536 : (Rect.unit (s := S512x4096) ![0, 1536] S512x128.size inb_S512x4096_S512x128_0_1536).PackedRows (EltTy.packing .bf16)
  inb_S512x4096_S512x128_0_1664 : ∀ a, (![0, 1664] : Fin 2 → Nat) a + S512x128.size a ≤ S512x4096.size a
  inb_S512x32_S512x1_0_13 : ∀ a, (![0, 13] : Fin 2 → Nat) a + S512x1.size a ≤ S512x32.size a
  packedbf16_S512x4096_S512x128_0_1664 : (Rect.unit (s := S512x4096) ![0, 1664] S512x128.size inb_S512x4096_S512x128_0_1664).PackedRows (EltTy.packing .bf16)
  inb_S512x4096_S512x128_0_1792 : ∀ a, (![0, 1792] : Fin 2 → Nat) a + S512x128.size a ≤ S512x4096.size a
  inb_S512x32_S512x1_0_14 : ∀ a, (![0, 14] : Fin 2 → Nat) a + S512x1.size a ≤ S512x32.size a
  packedbf16_S512x4096_S512x128_0_1792 : (Rect.unit (s := S512x4096) ![0, 1792] S512x128.size inb_S512x4096_S512x128_0_1792).PackedRows (EltTy.packing .bf16)
  inb_S512x4096_S512x128_0_1920 : ∀ a, (![0, 1920] : Fin 2 → Nat) a + S512x128.size a ≤ S512x4096.size a
  inb_S512x32_S512x1_0_15 : ∀ a, (![0, 15] : Fin 2 → Nat) a + S512x1.size a ≤ S512x32.size a
  packedbf16_S512x4096_S512x128_0_1920 : (Rect.unit (s := S512x4096) ![0, 1920] S512x128.size inb_S512x4096_S512x128_0_1920).PackedRows (EltTy.packing .bf16)
  inb_S512x4096_S512x128_0_2048 : ∀ a, (![0, 2048] : Fin 2 → Nat) a + S512x128.size a ≤ S512x4096.size a
  inb_S512x32_S512x1_0_16 : ∀ a, (![0, 16] : Fin 2 → Nat) a + S512x1.size a ≤ S512x32.size a
  packedbf16_S512x4096_S512x128_0_2048 : (Rect.unit (s := S512x4096) ![0, 2048] S512x128.size inb_S512x4096_S512x128_0_2048).PackedRows (EltTy.packing .bf16)
  inb_S512x4096_S512x128_0_2176 : ∀ a, (![0, 2176] : Fin 2 → Nat) a + S512x128.size a ≤ S512x4096.size a
  inb_S512x32_S512x1_0_17 : ∀ a, (![0, 17] : Fin 2 → Nat) a + S512x1.size a ≤ S512x32.size a
  packedbf16_S512x4096_S512x128_0_2176 : (Rect.unit (s := S512x4096) ![0, 2176] S512x128.size inb_S512x4096_S512x128_0_2176).PackedRows (EltTy.packing .bf16)
  inb_S512x4096_S512x128_0_2304 : ∀ a, (![0, 2304] : Fin 2 → Nat) a + S512x128.size a ≤ S512x4096.size a
  inb_S512x32_S512x1_0_18 : ∀ a, (![0, 18] : Fin 2 → Nat) a + S512x1.size a ≤ S512x32.size a
  packedbf16_S512x4096_S512x128_0_2304 : (Rect.unit (s := S512x4096) ![0, 2304] S512x128.size inb_S512x4096_S512x128_0_2304).PackedRows (EltTy.packing .bf16)
  inb_S512x4096_S512x128_0_2432 : ∀ a, (![0, 2432] : Fin 2 → Nat) a + S512x128.size a ≤ S512x4096.size a
  inb_S512x32_S512x1_0_19 : ∀ a, (![0, 19] : Fin 2 → Nat) a + S512x1.size a ≤ S512x32.size a
  packedbf16_S512x4096_S512x128_0_2432 : (Rect.unit (s := S512x4096) ![0, 2432] S512x128.size inb_S512x4096_S512x128_0_2432).PackedRows (EltTy.packing .bf16)
  inb_S512x4096_S512x128_0_2560 : ∀ a, (![0, 2560] : Fin 2 → Nat) a + S512x128.size a ≤ S512x4096.size a
  inb_S512x32_S512x1_0_20 : ∀ a, (![0, 20] : Fin 2 → Nat) a + S512x1.size a ≤ S512x32.size a
  packedbf16_S512x4096_S512x128_0_2560 : (Rect.unit (s := S512x4096) ![0, 2560] S512x128.size inb_S512x4096_S512x128_0_2560).PackedRows (EltTy.packing .bf16)
  inb_S512x4096_S512x128_0_2688 : ∀ a, (![0, 2688] : Fin 2 → Nat) a + S512x128.size a ≤ S512x4096.size a
  inb_S512x32_S512x1_0_21 : ∀ a, (![0, 21] : Fin 2 → Nat) a + S512x1.size a ≤ S512x32.size a
  packedbf16_S512x4096_S512x128_0_2688 : (Rect.unit (s := S512x4096) ![0, 2688] S512x128.size inb_S512x4096_S512x128_0_2688).PackedRows (EltTy.packing .bf16)
  inb_S512x4096_S512x128_0_2816 : ∀ a, (![0, 2816] : Fin 2 → Nat) a + S512x128.size a ≤ S512x4096.size a
  inb_S512x32_S512x1_0_22 : ∀ a, (![0, 22] : Fin 2 → Nat) a + S512x1.size a ≤ S512x32.size a
  packedbf16_S512x4096_S512x128_0_2816 : (Rect.unit (s := S512x4096) ![0, 2816] S512x128.size inb_S512x4096_S512x128_0_2816).PackedRows (EltTy.packing .bf16)
  inb_S512x4096_S512x128_0_2944 : ∀ a, (![0, 2944] : Fin 2 → Nat) a + S512x128.size a ≤ S512x4096.size a
  inb_S512x32_S512x1_0_23 : ∀ a, (![0, 23] : Fin 2 → Nat) a + S512x1.size a ≤ S512x32.size a
  packedbf16_S512x4096_S512x128_0_2944 : (Rect.unit (s := S512x4096) ![0, 2944] S512x128.size inb_S512x4096_S512x128_0_2944).PackedRows (EltTy.packing .bf16)
  inb_S512x4096_S512x128_0_3072 : ∀ a, (![0, 3072] : Fin 2 → Nat) a + S512x128.size a ≤ S512x4096.size a
  inb_S512x32_S512x1_0_24 : ∀ a, (![0, 24] : Fin 2 → Nat) a + S512x1.size a ≤ S512x32.size a
  packedbf16_S512x4096_S512x128_0_3072 : (Rect.unit (s := S512x4096) ![0, 3072] S512x128.size inb_S512x4096_S512x128_0_3072).PackedRows (EltTy.packing .bf16)
  inb_S512x4096_S512x128_0_3200 : ∀ a, (![0, 3200] : Fin 2 → Nat) a + S512x128.size a ≤ S512x4096.size a
  inb_S512x32_S512x1_0_25 : ∀ a, (![0, 25] : Fin 2 → Nat) a + S512x1.size a ≤ S512x32.size a
  packedbf16_S512x4096_S512x128_0_3200 : (Rect.unit (s := S512x4096) ![0, 3200] S512x128.size inb_S512x4096_S512x128_0_3200).PackedRows (EltTy.packing .bf16)
  inb_S512x4096_S512x128_0_3328 : ∀ a, (![0, 3328] : Fin 2 → Nat) a + S512x128.size a ≤ S512x4096.size a
  inb_S512x32_S512x1_0_26 : ∀ a, (![0, 26] : Fin 2 → Nat) a + S512x1.size a ≤ S512x32.size a
  packedbf16_S512x4096_S512x128_0_3328 : (Rect.unit (s := S512x4096) ![0, 3328] S512x128.size inb_S512x4096_S512x128_0_3328).PackedRows (EltTy.packing .bf16)
  inb_S512x4096_S512x128_0_3456 : ∀ a, (![0, 3456] : Fin 2 → Nat) a + S512x128.size a ≤ S512x4096.size a
  inb_S512x32_S512x1_0_27 : ∀ a, (![0, 27] : Fin 2 → Nat) a + S512x1.size a ≤ S512x32.size a
  packedbf16_S512x4096_S512x128_0_3456 : (Rect.unit (s := S512x4096) ![0, 3456] S512x128.size inb_S512x4096_S512x128_0_3456).PackedRows (EltTy.packing .bf16)
  inb_S512x4096_S512x128_0_3584 : ∀ a, (![0, 3584] : Fin 2 → Nat) a + S512x128.size a ≤ S512x4096.size a
  inb_S512x32_S512x1_0_28 : ∀ a, (![0, 28] : Fin 2 → Nat) a + S512x1.size a ≤ S512x32.size a
  packedbf16_S512x4096_S512x128_0_3584 : (Rect.unit (s := S512x4096) ![0, 3584] S512x128.size inb_S512x4096_S512x128_0_3584).PackedRows (EltTy.packing .bf16)
  inb_S512x4096_S512x128_0_3712 : ∀ a, (![0, 3712] : Fin 2 → Nat) a + S512x128.size a ≤ S512x4096.size a
  inb_S512x32_S512x1_0_29 : ∀ a, (![0, 29] : Fin 2 → Nat) a + S512x1.size a ≤ S512x32.size a
  packedbf16_S512x4096_S512x128_0_3712 : (Rect.unit (s := S512x4096) ![0, 3712] S512x128.size inb_S512x4096_S512x128_0_3712).PackedRows (EltTy.packing .bf16)
  inb_S512x4096_S512x128_0_3840 : ∀ a, (![0, 3840] : Fin 2 → Nat) a + S512x128.size a ≤ S512x4096.size a
  inb_S512x32_S512x1_0_30 : ∀ a, (![0, 30] : Fin 2 → Nat) a + S512x1.size a ≤ S512x32.size a
  packedbf16_S512x4096_S512x128_0_3840 : (Rect.unit (s := S512x4096) ![0, 3840] S512x128.size inb_S512x4096_S512x128_0_3840).PackedRows (EltTy.packing .bf16)
  inb_S512x4096_S512x128_0_3968 : ∀ a, (![0, 3968] : Fin 2 → Nat) a + S512x128.size a ≤ S512x4096.size a
  inb_S512x32_S512x1_0_31 : ∀ a, (![0, 31] : Fin 2 → Nat) a + S512x1.size a ≤ S512x32.size a
  packedbf16_S512x4096_S512x128_0_3968 : (Rect.unit (s := S512x4096) ![0, 3968] S512x128.size inb_S512x4096_S512x128_0_3968).PackedRows (EltTy.packing .bf16)
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x4096.size a
  hwx0_3 : ∀ i : grid0.Coords, EltTy.bits .bf16 = 32 ∨ (Rect.block (s := S4096x4096) S512x256.size (cc0_transform_3 i) (hinb0_3 i)).WholeWords (EltTy.packing .bf16)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x32 : Shape := ⟨2, ![4096, 32]⟩
abbrev S32x32 : Shape := ⟨2, ![32, 32]⟩
abbrev S4096x32x128 : Shape := ⟨3, ![4096, 32, 128]⟩
abbrev S32x128x32 : Shape := ⟨3, ![32, 128, 32]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x4096, .f32⟩
  | .hbm, ⟨3, _⟩ => ⟨S32x32, .f32⟩
  | .hbm, ⟨4, _⟩ => ⟨S4096x32x128, .f32⟩
  | .hbm, ⟨5, _⟩ => ⟨S4096x4096, .f32⟩
  | .hbm, ⟨6, _⟩ => ⟨S4096x4096, .f32⟩
  | .hbm, ⟨7, _⟩ => ⟨S32x128x32, .f32⟩
  | .hbm, ⟨8, _⟩ => ⟨S4096x32, .f32⟩
  | .hbm, ⟨9, _⟩ => ⟨S4096x32x128, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S32x32_S32x128x32_0_2 : S32x32.BroadcastsInDim S32x128x32 (![0, 2] : Fin 2 → Fin S32x128x32.rank)
  shapeCasts_S32x128x32_S4096x32 : S32x128x32.ShapeCasts S4096x32
  bitsLt_bf16_f32 : FTy.bits .bf16 < FTy.bits .f32
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The block-scaled product, as one function of the four argument arrays over the extended reals.

  The activation `x` (4096 × 4096) carries one scale per row and per block of 128 consecutive columns (`xs`, 4096 × 32);
  the weight `w` (4096 × 4096) carries one scale per block of 128 rows and 128 columns (`ws`, 32 × 32). Both are
  rescaled entry by entry, and the result at (m, n) is the inner product of row m of the rescaled activation with row n
  of the rescaled weight:

      G (m, n) = ∑ k, (x (m, k) · xs (m, k / 128)) · (w (n, k) · ws (n / 128, k / 128)).

  Each entry of the sum is a product of four extended reals in a fixed bracketing; nothing is distributed or cancelled,
  so no finiteness of the inputs is needed to compare two programs that both compute this sum.
-/
import Idealize.ShloMosaic.PureOps.Ideal
import Idealize.ShloMosaic.Lib.ValueIdx

noncomputable section

namespace Cert.Spec

open Idealize.ShloMosaic Idealize.ShloMosaic.ValueIdx

/-- The block of 128 consecutive positions that position `k` of an axis of 4096 lies in. -/
def blk (k : Fin 4096) : Fin 32 := ⟨k.val / 128, by have := k.isLt; omega⟩

theorem blk_val (k : Fin 4096) : (blk k).val = k.val / 128 := rfl

/-- The rescaled activation: entry (m, k) times the scale of row m and of k's block of columns. -/
def xdq (x : (⟨2, ![4096, 4096]⟩ : Shape).Idx → EReal) (xs : (⟨2, ![4096, 32]⟩ : Shape).Idx → EReal)
    (m k : Fin 4096) : EReal :=
  x (ix2 m k) * xs (ix2 m (blk k))

/-- The rescaled weight: entry (n, k) times the scale of n's block of rows and k's block of columns. -/
def wdq (w : (⟨2, ![4096, 4096]⟩ : Shape).Idx → EReal) (ws : (⟨2, ![32, 32]⟩ : Shape).Idx → EReal)
    (n k : Fin 4096) : EReal :=
  w (ix2 n k) * ws (ix2 (blk n) (blk k))

/-- The result array: at (m, n) the inner product over k of the rescaled activation's row m and the rescaled
    weight's row n. -/
def G (x : (⟨2, ![4096, 4096]⟩ : Shape).Idx → EReal) (xs : (⟨2, ![4096, 32]⟩ : Shape).Idx → EReal)
    (w : (⟨2, ![4096, 4096]⟩ : Shape).Idx → EReal) (ws : (⟨2, ![32, 32]⟩ : Shape).Idx → EReal) :
    (⟨2, ![4096, 4096]⟩ : Shape).Idx → EReal :=
  fun i => ∑ k : Fin 4096, xdq x xs (i 0) k * wdq w ws (i 1) k

end Cert.Spec

end
-- ==== Proof.RefIsG.lean ====
/-
  The reference program's result is the block-scaled product `Spec.G` of its arguments.

  The reference repeats each activation scale 128 times along the columns (a broadcast to 4096 × 32 × 128 flattened to
  4096 × 4096: column k receives the scale of block k / 128), repeats each weight scale 128 times along the rows and
  128 times along the columns (32 × 32 → 32 × 128 × 32 → 4096 × 32 → 4096 × 32 × 128 → 4096 × 4096: entry (n, k)
  receives the scale of (n / 128, k / 128)), multiplies entry by entry, contracts the two products over their
  second axes, and changes the float format, which is the identity on the extended reals.
-/
import proofs.«110875_j2886218023303_2_alg».proof.Proof.Gen.ReferenceIdeal.Read
import proofs.«110875_j2886218023303_2_alg».proof.Proof.Spec

noncomputable section

namespace Cert.RefValue

open Cert.ReferenceIdeal Cert.ReferenceIdeal.Read Idealize.ShloMosaic Idealize.ShloMosaic.ValueIdx Cert.Spec

/-- The activation scale the reference pairs with entry (m, k): the repeat reads block k / 128 of row m. -/
theorem xscale_idx (m k : Fin 4096) :
    idx_main_v0 (idx_main_v1 (ix2 m k)) = ix2 m (blk k) := by
  funext a
  apply Fin.ext
  have hm := m.isLt
  have hk := k.isLt
  match a with
  | ⟨0, _⟩ => show (m.val * 4096 + k.val) / 4096 = m.val; omega
  | ⟨1, _⟩ => show (m.val * 4096 + k.val) / 128 % 32 = k.val / 128; omega

/-- The weight scale the reference pairs with entry (n, k): the two repeats read block (n / 128, k / 128). -/
theorem wscale_idx (n k : Fin 4096) :
    idx_main_v3 (idx_main_v4 (idx_main_v5 (idx_main_v6 (ix2 n k)))) = ix2 (blk n) (blk k) := by
  funext a
  apply Fin.ext
  have hn := n.isLt
  have hk := k.isLt
  match a with
  | ⟨0, _⟩ =>
    show ((n.val * 4096 + k.val) / 4096 * 32 + (n.val * 4096 + k.val) / 128 % 32) / 4096 = n.val / 128
    omega
  | ⟨1, _⟩ =>
    show ((n.val * 4096 + k.val) / 4096 * 32 + (n.val * 4096 + k.val) / 128 % 32) % 32 = k.val / 128
    omega

/-- The activation the reference contracts: entry (m, k) is the rescaled activation `Spec.xdq`. -/
theorem xprep_apply (x0 : (⟨S4096x4096, .f32⟩ : BufTy).Contents (Elt Ideal)) (x1 : (⟨S4096x32, .f32⟩ : BufTy).Contents (Elt Ideal))
    (m k : Fin 4096) : val_main_v2 (F := Ideal) x0 x1 (ix2 m k) = xdq x0 x1 m k := by
  rw [val_main_v2_apply, val_main_v1_apply, val_main_v0_apply, xscale_idx, Ideal.mulf_def]
  rfl

/-- The weight the reference contracts: entry (n, k) is the rescaled weight `Spec.wdq`. -/
theorem wprep_apply (x2 : (⟨S4096x4096, .f32⟩ : BufTy).Contents (Elt Ideal)) (x3 : (⟨S32x32, .f32⟩ : BufTy).Contents (Elt Ideal))
    (n k : Fin 4096) : val_main_v7 (F := Ideal) x2 x3 (ix2 n k) = wdq x2 x3 n k := by
  rw [val_main_v7_apply, val_main_v6_apply, val_main_v5_apply, val_main_v4_apply, val_main_v3_apply, wscale_idx,
    Ideal.mulf_def]
  rfl

/-- The reference's last stage, read at every index, is `Spec.G` of the four arguments. -/
theorem ref_eq (x0 : (⟨S4096x4096, .f32⟩ : BufTy).Contents (Elt Ideal)) (x1 : (⟨S4096x32, .f32⟩ : BufTy).Contents (Elt Ideal))
    (x2 : (⟨S4096x4096, .f32⟩ : BufTy).Contents (Elt Ideal)) (x3 : (⟨S32x32, .f32⟩ : BufTy).Contents (Elt Ideal)) :
    val_main_v9 (F := Ideal) x0 x1 x2 x3 = G x0 x1 x2 x3 := by
  funext i
  obtain ⟨p, q, rfl⟩ : ∃ (p q : Fin 4096), i = ix2 p q := ⟨i 0, i 1, eq_ix2 i⟩
  rw [val_main_v9_apply, Ideal.truncf_def, val_main_v8_apply]
  unfold G
  refine Finset.sum_congr rfl fun k _ => ?_
  have el : lidx_main_v8 (ix2 p q) k = ix2 p k := funext fun a => Fin.ext (by match a with | ⟨0, _⟩ => rfl | ⟨1, _⟩ => rfl)
  have er : ridx_main_v8 (ix2 p q) k = ix2 q k := funext fun a => Fin.ext (by match a with | ⟨0, _⟩ => rfl | ⟨1, _⟩ => rfl)
  rw [el, er, xprep_apply, wprep_apply]

end Cert.RefValue

end
-- ==== Proof.Payload.lean ====
/-
  The kernel body's arithmetic, read at an index over the extended reals.

  The body rescales its activation block (512 rows × 4096 columns) in 32 slabs of 128 columns: slab number `kb` is
  the block's columns 128·kb … 128·kb + 127 times column `kb` of the block's scales (512 × 32), spread along the
  128 lanes. Then it contracts the rescaled block with its weight block (256 rows × 4096 columns) over the 4096
  columns. Changes of float format are the identity here, a reshape to the same shape is the identity, and the matrix
  unit's product into a zero accumulator is the plain sum of products.
-/
import proofs.«110875_j2886218023303_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-- A column of 512 scales spread along 128 lanes reads, at (r, l), the scale of row r. -/
theorem spread_apply (b : S512x1.Idx → EReal) (h : S512x1.Broadcasts S512x128) (r : Fin 512) (l : Fin 128) :
    broadcastTo S512x128 b h (ix2 r l) = b (ix2 r (0 : Fin 1)) := by
  refine broadcastTo_apply b h (ix2 r l) (ix2 r (0 : Fin 1)) fun a => ?_
  match a with
  | ⟨0, _⟩ => show r.val = if (512 : Nat) = 1 then 0 else r.val; rw [if_neg (by decide)]
  | ⟨1, _⟩ => show (0 : Nat) = if (1 : Nat) = 1 then 0 else l.val; rw [if_pos rfl]

/-- One slab of the rescaled block: entry (r, l) of the 128 columns `a` times the scale of row r. -/
def slab (a : Vec Ideal S512x128 .bf16) (b : Vec Ideal S512x1 .f32) : Vec Ideal S512x128 .bf16 :=
  fun x => a x * b (ix2 (⟨(x 0).val, (x 0).isLt⟩ : Fin 512) (0 : Fin 1))

theorem slab_apply (a : Vec Ideal S512x128 .bf16) (b : Vec Ideal S512x1 .f32) (r : Fin 512) (l : Fin 128) :
    slab a b (ix2 r l) = a (ix2 r l) * b (ix2 r (0 : Fin 1)) := rfl

/-- The body's rescaling of one slab — widen the 128 columns, spread the scales, multiply, narrow — is `slab`. -/
theorem rescale_eq (a : Vec Ideal S512x128 .bf16) (b : Vec Ideal S512x1 .f32)
    (h1 : S512x128.ShapeCasts S512x128) (h2 : FTy.bf16.bits < FTy.f32.bits) (h3 : S512x1.Broadcasts S512x128)
    (h4 : FTy.bf16.bits < FTy.f32.bits) (h5 : S512x128.ShapeCasts S512x128) :
    (shapeCast S512x128 (truncf (F := Ideal) .bf16 (mulf (F := Ideal) (extf (F := Ideal) .f32 (shapeCast S512x128 a h1) h2)
      (broadcastTo S512x128 b h3)) h4) h5 : FVec Ideal S512x128 .bf16) = slab a b := by
  funext x
  obtain ⟨r, l, rfl⟩ : ∃ (r : Fin 512) (l : Fin 128), x = ix2 r l := ⟨x 0, x 1, eq_ix2 x⟩
  rw [shapeCast_self, shapeCast_self, truncf_apply, mulf_apply, extf_apply, spread_apply, slab_apply]

/-! ## The contraction -/

local notation "dotK" => dot_S512x4096_S256x4096_S512x256_1_1_0_0_n_n

theorem lhs_row (j : S512x256.Idx) (q : (dotK).contr.Idx) : ((dotK).lhsIdx j q 0).val = (j 0).val := by
  unfold DotDims.lhsIdx
  rw [dif_neg (show ¬(0 : Fin S512x4096.rank) ∈ (dotK).lhsBatch by decide),
    dif_pos (show (0 : Fin S512x4096.rank) ∈ (dotK).lhsNonContracting by decide)]
  rfl

theorem rhs_row (j : S512x256.Idx) (q : (dotK).contr.Idx) : ((dotK).rhsIdx j q 0).val = (j 1).val := by
  unfold DotDims.rhsIdx
  rw [dif_neg (show ¬(0 : Fin S256x4096.rank) ∈ (dotK).rhsBatch by decide),
    dif_pos (show (0 : Fin S256x4096.rank) ∈ (dotK).rhsNonContracting by decide)]
  rfl

/-- The body's product: entry (r, n) is the sum over the 4096 columns of row r of the rescaled activation block
    times row n of the weight block. -/
theorem product_apply (S : Vec Ideal S512x4096 .bf16) (W : Vec Ideal S256x4096 .bf16) (r : Fin 512) (n : Fin 256) :
    k0_pay2 (F := Ideal) S W (ix2 r n) = ∑ k : Fin 4096, S (ix2 r k) * W (ix2 n k) := by
  unfold k0_pay2
  show (truncf (F := Ideal) .bf16 (matmul (dotK) none S (shapeCast S256x4096 W shapeCasts_S256x4096_S256x4096)
    (constant (F := Ideal) S512x256 .f32 0x00000000#32)) bitsLt_bf16_f32) (ix2 r n) = _
  rw [truncf_apply, shapeCast_self]
  refine (Ideal.matmul_constant_zero_apply (φ₁ := .bf16) (φ₂ := .bf16) (dotK) none S W (ix2 r n)).trans ?_
  rw [← Equiv.sum_comp (contrEquiv1 (dotK) 4096 rfl rfl).symm]
  refine Finset.sum_congr rfl fun k _ => ?_
  have hk := contrEquiv1_symm_val (dotK) 4096 rfl rfl k
  have el : (dotK).lhsIdx (ix2 r n) ((contrEquiv1 (dotK) 4096 rfl rfl).symm k) = ix2 r k := funext fun a => Fin.ext (by
    match a with
    | ⟨0, _⟩ => exact lhs_row _ _
    | ⟨1, _⟩ => exact ((dotK).lhsIdx_val_of_single rfl _ _).trans hk)
  have er : (dotK).rhsIdx (ix2 r n) ((contrEquiv1 (dotK) 4096 rfl rfl).symm k) = ix2 n k := funext fun a => Fin.ext (by
    match a with
    | ⟨0, _⟩ => exact rhs_row _ _
    | ⟨1, _⟩ => exact ((dotK).rhsIdx_val_of_single rfl _ _).trans hk)
  rw [el, er]

end Cert.KernelValue

end
-- ==== Proof.Pieces.lean ====
/-
  What the kernel body leaves behind, in each of its two cases, as values over the extended reals.

  The scratch buffer is 512 rows × 4096 columns. Where the body rescales (the first point of a grid row) it stores 32
  slabs into it, slab kb at columns 128·kb … 128·kb + 127; each slab is the activation block's same columns times column
  kb of the block's scales, and kb is exactly the block of 128 that each of those columns lies in, so every slab agrees
  with ONE function of the scratch index, `rescaled`, and the 32 slabs cover the scratch: it ends holding `rescaled`.
  The body then reads the whole scratch back and stores its product with the weight block. Where the body does not
  rescale it stores nothing into the scratch and multiplies whatever the scratch held.
-/
import proofs.«110875_j2886218023303_2_alg».proof.Proof.Gen.KernelIdeal.Frame
import proofs.«110875_j2886218023303_2_alg».proof.Proof.Payload
import proofs.«110875_j2886218023303_2_alg».proof.Proof.Spec
import Idealize.ShloMosaic.Lib.Pipeline.Value
import Idealize.ShloMosaic.Lib.Tactic

set_option maxRecDepth 16384

noncomputable section

namespace Cert.KernelValue

open Cert.KernelIdeal Cert.KernelIdeal.Gen Idealize.ShloMosaic Idealize.ShloMosaic.TcCoe Idealize.ShloMosaic.Tactic
open Idealize.ShloMosaic.ValueIdx Idealize.SL.Sem

/-- The whole rescaled activation block: entry (r, k) of the block times the scale of row r and of k's block of 128
    columns. -/
def rescaled (x0 : Vec Ideal S512x4096 .bf16) (x1 : Vec Ideal S512x32 .f32) : Vec Ideal S512x4096 .bf16 :=
  fun y => x0 y * x1 (ix2 (⟨(y 0).val, (y 0).isLt⟩ : Fin 512)
    (⟨(y 1).val / 128, by have h : (y 1).val < 4096 := (y 1).isLt; omega⟩ : Fin 32))

theorem rescaled_apply (x0 : Vec Ideal S512x4096 .bf16) (x1 : Vec Ideal S512x32 .f32) (r : Fin 512) (k : Fin 4096) :
    rescaled x0 x1 (ix2 r k) = x0 (ix2 r k) * x1 (ix2 r (Spec.blk k)) := rfl

/-- The slab made of columns `128·o' …` of the block and column `o'` of its scales, placed at columns `128·o' …`, is the
    rescaled block there: the scale's column `o'` is the block of every column `128·o' + l`, l < 128. -/
theorem slab_piece (o o' : Nat) (ho : o = 128 * o')
    (inb : ∀ a, (![0, o] : Fin 2 → Nat) a + S512x128.size a ≤ S512x4096.size a)
    (inb' : ∀ a, (![0, o'] : Fin 2 → Nat) a + S512x1.size a ≤ S512x32.size a)
    (x0 : Vec Ideal S512x4096 .bf16) (x1 : Vec Ideal S512x32 .f32)
    (x : (Rect.unit (s := S512x4096) ![0, o] S512x128.size inb).shape.Idx) :
    slab (View.ld x0 (Rect.unit (s := S512x4096) ![0, o] S512x128.size inb))
        (View.ld x1 (Rect.unit (s := S512x32) ![0, o'] S512x1.size inb')) x
      = rescaled x0 x1 ((Rect.unit (s := S512x4096) ![0, o] S512x128.size inb).emb x) := by
  subst ho
  unfold slab rescaled View.ld
  have hx1 : (x 1).val < 128 := (x 1).isLt
  refine congrArg₂ (· * ·) rfl (congrArg x1 (funext fun a => Fin.ext ?_))
  match a with
  | ⟨0, _⟩ => rfl
  | ⟨1, _⟩ => show o' + 1 * 0 = (128 * o' + 1 * (x 1).val) / 128; omega

theorem hz2 : (![0, 0] : Fin 2 → Nat) = fun _ => 0 := funext fun a => by fin_cases a <;> rfl

set_option maxHeartbeats 1600000 in
/-- WHERE THE BODY RESCALES (the first point of each row of the grid), the scratch ends holding the rescaled block: its
    32 stores are the 32 slabs, each the rescaled block on its 128 columns, and together they cover the scratch. -/
theorem scratch_A (c : Dev nD) (i : grid0.Coords) (arg2 : Memref sig .tc .vmem S512x4096 .bf16) (harg2 : arg2.IsWhole) (arg3 : Memref sig .tc .vmem S512x32 .f32) (harg3 : arg3.IsWhole) (arg4 : Memref sig .tc .vmem S256x4096 .bf16) (harg4 : arg4.IsWhole) (arg5 : Memref sig .tc .vmem S512x256 .bf16) (harg5 : arg5.IsWhole) (arg6 : Memref sig .tc .vmem S512x4096 .bf16) (harg6 : arg6.IsWhole) (hc0 : cond0_0 i)
    (x0 : Vec Ideal S512x4096 .bf16) (x1 : Vec Ideal S512x32 .f32) (x2 : Vec Ideal S256x4096 .bf16) :
    sout0_A_0 (F := Ideal) c i arg2 harg2 arg3 harg3 arg4 harg4 arg5 harg5 arg6 harg6 hc0 x0 x1 x2 = rescaled x0 x1 := by
  unfold sout0_A_0
  rw [View.read_writes_eq_canon _ _ _ (scover0_A_0 c i arg2 harg2 arg3 harg3 arg4 harg4 arg5 harg5 arg6 harg6 hc0 x0 x1 x2)]
  funext y
  refine View.canon_apply_of_pieces (rescaled x0 x1) _ ?_ y
    (scover0_A_0 c i arg2 harg2 arg3 harg3 arg4 harg4 arg5 harg5 arg6 harg6 hc0 x0 x1 x2 y)
  unfold kernelRun0_A
  dsimp only
  sl_unfold_words
  simp only [View.readAt_eq_ld, harg2.read_unread, harg3.read_unread]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, (fun _ h => absurd h List.not_mem_nil)⟩⟩⟩⟩⟩⟩⟩⟩⟩⟩⟩⟩⟩⟩⟩⟩⟩⟩⟩⟩⟩⟩⟩⟩⟩⟩⟩⟩⟩⟩⟩⟩
  all_goals
    intro x
    exact (congrFun (rescale_eq _ _ shapeCasts_S512x128_S512x128 bitsLt_bf16_f32 broadcasts_S512x1_S512x128 bitsLt_bf16_f32
      shapeCasts_S512x128_S512x128) x).trans (slab_piece _ _ (by decide) _ _ x0 x1 x)

/-- WHERE THE BODY DOES NOT RESCALE, the output block is the product of what the scratch held (`xs0`) with the weight
    block: one store of the whole block, whose payload loads the whole scratch and the whole weight buffer. -/
theorem out_B (c : Dev nD) (i : grid0.Coords) (arg2 : Memref sig .tc .vmem S512x4096 .bf16) (harg2 : arg2.IsWhole) (arg3 : Memref sig .tc .vmem S512x32 .f32) (harg3 : arg3.IsWhole) (arg4 : Memref sig .tc .vmem S256x4096 .bf16) (harg4 : arg4.IsWhole) (arg5 : Memref sig .tc .vmem S512x256 .bf16) (harg5 : arg5.IsWhole) (arg6 : Memref sig .tc .vmem S512x4096 .bf16) (harg6 : arg6.IsWhole) (hc0 : ¬cond0_0 i)
    (x0 : Vec Ideal S512x4096 .bf16) (x1 : Vec Ideal S512x32 .f32) (x2 : Vec Ideal S256x4096 .bf16)
    (xs0 : Vec Ideal S512x4096 .bf16) :
    out0_B_3 (F := Ideal) c i arg2 harg2 arg3 harg3 arg4 harg4 arg5 harg5 arg6 harg6 hc0 x0 x1 x2 xs0 = k0_pay2 (F := Ideal) xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz2]
  simp only [View.readAt_eq_ld, harg6.read_unread, harg4.read_unread, View.ld_unit_zero (S := S512x4096) hz2,
    View.ld_unit_zero (S := S256x4096) hz2]

/-- WHERE THE BODY RESCALES, the output block is the product of the rescaled block — which the body reads back from the
    scratch its 32 stores have just covered — with the weight block. -/
theorem out_A (c : Dev nD) (i : grid0.Coords) (arg2 : Memref sig .tc .vmem S512x4096 .bf16) (harg2 : arg2.IsWhole) (arg3 : Memref sig .tc .vmem S512x32 .f32) (harg3 : arg3.IsWhole) (arg4 : Memref sig .tc .vmem S256x4096 .bf16) (harg4 : arg4.IsWhole) (arg5 : Memref sig .tc .vmem S512x256 .bf16) (harg5 : arg5.IsWhole) (arg6 : Memref sig .tc .vmem S512x4096 .bf16) (harg6 : arg6.IsWhole) (hc0 : cond0_0 i)
    (x0 : Vec Ideal S512x4096 .bf16) (x1 : Vec Ideal S512x32 .f32) (x2 : Vec Ideal S256x4096 .bf16) :
    out0_A_3 (F := Ideal) c i arg2 harg2 arg3 harg3 arg4 harg4 arg5 harg5 arg6 harg6 hc0 x0 x1 x2 = k0_pay2 (F := Ideal) (rescaled x0 x1) x2 := by
  unfold out0_A_3
  rw [View.read_writes_eq_canon _ _ _ (cover0_A_3 c i arg2 harg2 arg3 harg3 arg4 harg4 arg5 harg5 arg6 harg6 hc0 x0 x1 x2)]
  have hS := scratch_A c i arg2 harg2 arg3 harg3 arg4 harg4 arg5 harg5 arg6 harg6 hc0 x0 x1 x2
  unfold sout0_A_0 at hS
  rw [View.read_writes_eq_canon _ _ _ (scover0_A_0 c i arg2 harg2 arg3 harg3 arg4 harg4 arg5 harg5 arg6 harg6 hc0 x0 x1 x2)] at hS
  have e : (kernelRun0_A (F := Ideal) c i arg2 harg2 arg3 harg3 arg4 harg4 arg5 harg5 arg6 harg6 hc0 x0 x1 x2).1
      = [⟨Rect.unit (s := S512x256) ![0, 0] ![512, 256] inb_S512x256_S512x256_0_0,
          k0_pay2 (F := Ideal)
            (arg6.view.readCov (kernelRun0_A (F := Ideal) c i arg2 harg2 arg3 harg3 arg4 harg4 arg5 harg5 arg6 harg6 hc0 x0 x1 x2).2.1
              (Rect.unit (s := S512x4096) ![0, 0] ![512, 4096] inb_S512x4096_S512x4096_0_0).toLoadRect)
            (View.readAt (Elt Ideal) arg4.view
              (Rect.unit (s := S256x4096) ![0, 0] ![256, 4096] inb_S256x4096_S256x4096_0_0).toLoadRect (harg4.unread x2))⟩] :=
    rfl
  rw [e, View.canon_unit_zero hz2,
    View.readCov_eq_canon_ld _ _ _ (scover0_A_0 c i arg2 harg2 arg3 harg3 arg4 harg4 arg5 harg5 arg6 harg6 hc0 x0 x1 x2), hS,
    View.ld_unit_zero (S := S512x4096) hz2, View.readAt_eq_ld, harg4.read_unread, View.ld_unit_zero (S := S256x4096) hz2]

end Cert.KernelValue

end
-- ==== Proof.Blocks.lean ====
/-
  What the kernel's windows hold at a grid point, in terms of the four argument arrays.

  The grid is 8 × 16, walked row by row: point t is (t / 16, t % 16). At point t the activation window and the scale
  window hold rows 512·(t / 16) … of their arrays, the weight window holds rows 256·(t % 16) … of its array, and the
  output window is block (t / 16, t % 16) of the result, 512 × 256. Before the call the program narrows the activation
  (the identity here) and rescales the weight with the same repeats and product the reference uses, so the weight
  window's array is the rescaled weight `Spec.wdq`.
-/
import proofs.«110875_j2886218023303_2_alg».proof.Proof.Gen.KernelIdeal.Frame
import proofs.«110875_j2886218023303_2_alg».proof.Proof.RefIsG
import Idealize.ShloMosaic.Lib.Pipeline.Value
import Idealize.ShloMosaic.Lib.StableHlo.Run
import Idealize.ShloMosaic.Lib.Tactic

set_option maxRecDepth 16384

noncomputable section

namespace Cert.KernelValue

open Cert.KernelIdeal Cert.KernelIdeal.Gen Idealize.ShloMosaic Idealize.ShloMosaic.TcCoe Idealize.ShloMosaic.Tactic
open Idealize.ShloMosaic.ValueIdx Idealize.SL.Sem Cert.Spec

variable (m : (ℓ : Loc nD τ sig) → Buf (Elt Ideal) ℓ)

/-- The windows' block indices at point t: (t / 16, 0) for the activation and its scales, (t % 16, 0) for the weight,
    (t / 16, t % 16) for the output — decided over the 128 points. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = t.val % 16 :=
  (by decide +kernel : ∀ t : Fin grid0.N, _)

theorem lt_N (t : Fin cfg0.N) : t.val < 128 := lt_of_lt_of_eq t.isLt (show cfg0.N = 128 from N_0)

/-- Row r of point t's activation block, as a row of the activation. -/
def rowOf (t : Fin cfg0.N) (r : Fin 512) : Fin 4096 :=
  ⟨512 * (t.val / 16) + r.val, by have := lt_N t; have := r.isLt; omega⟩

/-- Row n of point t's weight block, as a row of the weight. -/
def colOf (t : Fin cfg0.N) (n : Fin 256) : Fin 4096 :=
  ⟨256 * (t.val % 16) + n.val, by have := n.isLt; omega⟩

/-- The array the activation window stages is the activation argument (narrowed: the identity). -/
theorem V_act (c : Dev nD) :
    (V m c main_v0 : S4096x4096.Idx → EReal) = m ((c : Thread nD τ).loc main_arg0) := by
  dsimp only [Gen.V, Gen.hostOps0]; after_results; rfl

/-- The array the weight window stages is the weight argument rescaled exactly as the reference rescales it. -/
theorem V_weight (c : Dev nD) :
    (V m c main_v6 : S4096x4096.Idx → EReal)
      = Cert.ReferenceIdeal.Read.val_main_v7 (F := Ideal) (m ((c : Thread nD τ).loc main_arg2)) (m ((c : Thread nD τ).loc main_arg3)) := by
  dsimp only [Gen.V, Gen.hostOps0]; after_results; rfl

/-- The activation block at point t, entry (r, k): row `rowOf t r` of the activation. -/
theorem act_block (c : Dev nD) (t : Fin cfg0.N) (r : Fin 512) (k : Fin 4096) :
    (iblk m c 0 t : S512x4096.Idx → EReal) (ix2 r k) = m ((c : Thread nD τ).loc main_arg0) (ix2 (rowOf t r) k) := by
  obtain ⟨e0, e1, -⟩ := idx_facts t
  unfold iblk
  rw [View.read_apply]
  show V m c main_v0 (((cfg0.win 0).blk t).view.emb (ix2 r k)) = _
  refine (congrFun (V_act m c) _).trans (congrArg _ (funext fun a => Fin.ext ?_))
  match a with
  | ⟨0, _⟩ => show win0_0.index t (0 : Fin 2) * 512 + 1 * r.val = 512 * (t.val / 16) + r.val; rw [e0]; omega
  | ⟨1, _⟩ => show win0_0.index t (1 : Fin 2) * 4096 + 1 * k.val = k.val; rw [e1]; omega

/-- The scale block at point t, entry (r, j): row `rowOf t r` of the activation scales. -/
theorem scale_block (c : Dev nD) (t : Fin cfg0.N) (r : Fin 512) (j : Fin 32) :
    (iblk m c 1 t : S512x32.Idx → EReal) (ix2 r j) = m ((c : Thread nD τ).loc main_arg1) (ix2 (rowOf t r) j) := by
  obtain ⟨-, -, e0, e1, -⟩ := idx_facts t
  unfold iblk
  rw [View.read_apply]
  show V m c main_arg1 (((cfg0.win 1).blk t).view.emb (ix2 r j)) = _
  refine (congrFun (V_main_arg1 m c) _).trans (congrArg _ (funext fun a => Fin.ext ?_))
  match a with
  | ⟨0, _⟩ => show win0_1.index t (0 : Fin 2) * 512 + 1 * r.val = 512 * (t.val / 16) + r.val; rw [e0]; omega
  | ⟨1, _⟩ => show win0_1.index t (1 : Fin 2) * 32 + 1 * j.val = j.val; rw [e1]; omega

/-- The weight block at point t, entry (n, k): the rescaled weight at row `colOf t n`. -/
theorem weight_block (c : Dev nD) (t : Fin cfg0.N) (n : Fin 256) (k : Fin 4096) :
    (iblk m c 2 t : S256x4096.Idx → EReal) (ix2 n k)
      = wdq (m ((c : Thread nD τ).loc main_arg2)) (m ((c : Thread nD τ).loc main_arg3)) (colOf t n) k := by
  obtain ⟨-, -, -, -, e0, e1, -⟩ := idx_facts t
  unfold iblk
  rw [View.read_apply]
  show V m c main_v6 (((cfg0.win 2).blk t).view.emb (ix2 n k)) = _
  refine (congrFun (V_weight m c) _).trans ?_
  refine Eq.trans (congrArg _ (funext fun a => Fin.ext ?_)) (Cert.RefValue.wprep_apply _ _ (colOf t n) k)
  match a with
  | ⟨0, _⟩ => show win0_2.index t (0 : Fin 2) * 256 + 1 * n.val = 256 * (t.val % 16) + n.val; rw [e0]; omega
  | ⟨1, _⟩ => show win0_2.index t (1 : Fin 2) * 4096 + 1 * k.val = k.val; rw [e1]; omega

end Cert.KernelValue

end
-- ==== Proof.KernelValue.lean ====
/-
  The kernel's result array is the block-scaled product `Spec.G` of the four arguments.

  The grid is walked row by row, 16 points to a row. At the first point of a row the body rescales the row's activation
  block into a scratch buffer and leaves it there; the other 15 points of the row find it unchanged. So after ANY point
  t the scratch holds the rescaled rows 512·(t / 16) … of the activation — by induction on the point — and at every
  point the body writes the product of that scratch with the point's weight block: block (t / 16, t % 16) of `G`.
  The 128 blocks tile the 4096 × 4096 result.
-/
import proofs.«110875_j2886218023303_2_alg».proof.Proof.Gen.KernelIdeal.Value
import proofs.«110875_j2886218023303_2_alg».proof.Proof.Pieces
import proofs.«110875_j2886218023303_2_alg».proof.Proof.Blocks

set_option maxRecDepth 16384

noncomputable section

namespace Cert.KernelValue

open Cert.KernelIdeal Cert.KernelIdeal.Gen Idealize.ShloMosaic Idealize.ShloMosaic.TcCoe Idealize.ShloMosaic.Tactic
open Idealize.ShloMosaic.ValueIdx Idealize.SL.Sem Cert.Spec
open Idealize.ShloMosaic.Pipeline (Dat)

variable (m : (ℓ : Loc nD τ sig) → Buf (Elt Ideal) ℓ) (ρ : Dev nD → PrngReg)

/-- What the scratch holds after point n: the rescaled activation on the 512 rows of n's grid row. -/
def scrAt (c : Dev nD) (n : ℕ) (hn : n < cfg0.N) : Vec Ideal S512x4096 .bf16 :=
  fun y => xdq (m ((c : Thread nD τ).loc main_arg0)) (m ((c : Thread nD τ).loc main_arg1))
    (rowOf ⟨n, hn⟩ (⟨(y 0).val, (y 0).isLt⟩ : Fin 512)) (⟨(y 1).val, (y 1).isLt⟩ : Fin 4096)

theorem scrAt_apply (c : Dev nD) (n : ℕ) (hn : n < cfg0.N) (r : Fin 512) (k : Fin 4096) :
    scrAt m c n hn (ix2 r k) = xdq (m ((c : Thread nD τ).loc main_arg0)) (m ((c : Thread nD τ).loc main_arg1)) (rowOf ⟨n, hn⟩ r) k := rfl

/-- It depends on the point only through the point's grid row. -/
theorem scrAt_congr (c : Dev nD) (n n' : ℕ) (hn : n < cfg0.N) (hn' : n' < cfg0.N) (h : n / 16 = n' / 16) :
    scrAt m c n hn = scrAt m c n' hn' := by
  funext y
  refine congrArg (fun r => xdq (m ((c : Thread nD τ).loc main_arg0)) (m ((c : Thread nD τ).loc main_arg1)) r _) (Fin.ext ?_)
  show 512 * (n / 16) + (y 0).val = 512 * (n' / 16) + (y 0).val
  rw [h]

/-- The rescaled activation block of point t is those rows of the rescaled activation. -/
theorem block_rescaled (c : Dev nD) (t : Fin cfg0.N) :
    rescaled (iblk m c 0 t) (iblk m c 1 t) = scrAt m c t.val t.isLt := by
  funext y
  obtain ⟨r, k, rfl⟩ : ∃ (r : Fin 512) (k : Fin 4096), y = ix2 r k := ⟨y 0, y 1, eq_ix2 y⟩
  refine (rescaled_apply (iblk m c 0 t) (iblk m c 1 t) r k).trans ?_
  rw [act_block m c t r k, scale_block m c t r (blk k)]
  rfl

/-- At the first point of a grid row the body leaves the row's rescaled activation block in the scratch. -/
theorem scratch_first (c : Dev nD) (t : Fin cfg0.N) (h0 : t.val % 16 = 0) :
    (outsAt0 m c t.val t.isLt).2 = scrAt m c t.val t.isLt := by
  rw [outsAt0_A m c t h0]
  dsimp only
  refine Eq.trans ?_ (block_rescaled m c t)
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- THE SCRATCH after every point: rescaled at the first point of each grid row, untouched at the others. -/
theorem scratch_inv (c : Dev nD) : ∀ (n : ℕ) (hn : n < cfg0.N), (outsAt0 m c n hn).2 = scrAt m c n hn
  | 0, hn => scratch_first m c ⟨0, hn⟩ (Nat.zero_mod 16)
  | n + 1, hn => by
    by_cases h0 : (n + 1) % 16 = 0
    · exact scratch_first m c ⟨n + 1, hn⟩ h0
    · rw [outsAt0_B m c ⟨n + 1, hn⟩ h0]
      dsimp only
      unfold sout0_B_0
      show (outsAt0 m c n _).2 = _
      rw [scratch_inv c n (Nat.lt_of_succ_lt hn)]
      exact scrAt_congr m c n (n + 1) _ hn (by omega)

/-- THE OUTPUT BLOCK at every point: the product of the scratch's rescaled rows with the point's weight block. -/
theorem out_at (c : Dev nD) (t : Fin cfg0.N) :
    (outsAt0 m c t.val t.isLt).1 = k0_pay2 (F := Ideal) (scrAt m c t.val t.isLt) (iblk m c 2 t) := by
  by_cases h0 : t.val % 16 = 0
  · rw [outsAt0_A m c t h0]
    dsimp only
    rw [← block_rescaled m c t]
    exact out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]
    dsimp only
    have hlt : t.val - 1 < cfg0.N := Nat.lt_of_le_of_lt (Nat.sub_le _ _) t.isLt
    rw [scrAt_congr m c t.val (t.val - 1) t.isLt hlt (by omega), ← scratch_inv m c (t.val - 1) hlt]
    exact out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) hlt).2

/-- Entry (r, n) of point t's output block, as an index of the result. -/
theorem out_idx (t : Fin cfg0.N) (r : Fin 512) (n : Fin 256) :
    ((cfg0.win 3).blk t).view.emb (ix2 r n) = ix2 (rowOf t r) (colOf t n) := by
  obtain ⟨-, -, -, -, -, -, e0, e1⟩ := idx_facts t
  funext a
  apply Fin.ext
  match a with
  | ⟨0, _⟩ => show win0_3.index t (0 : Fin 2) * 512 + 1 * r.val = 512 * (t.val / 16) + r.val; rw [e0]; omega
  | ⟨1, _⟩ => show win0_3.index t (1 : Fin 2) * 256 + 1 * n.val = 256 * (t.val % 16) + n.val; rw [e1]; omega

/-- WHAT POINT t WRITES BACK is block t of `G` of the arguments. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2)) (m ((c : Thread nD τ).loc main_arg3))) := by
  rw [Cert.KernelIdeal.Value.flushed3, out_at m c t]
  funext y
  obtain ⟨r, n, rfl⟩ : ∃ (r : Fin 512) (n : Fin 256), y = ix2 r n := ⟨y 0, y 1, eq_ix2 y⟩
  show k0_pay2 (F := Ideal) (scrAt m c t.val t.isLt) (iblk m c 2 t) (ix2 r n)
    = G (m ((c : Thread nD τ).loc main_arg0)) (m ((c : Thread nD τ).loc main_arg1)) (m ((c : Thread nD τ).loc main_arg2)) (m ((c : Thread nD τ).loc main_arg3)) (((cfg0.win 3).blk t).view.emb (ix2 r n))
  rw [product_apply, out_idx t r n]
  unfold G
  refine Finset.sum_congr rfl fun k _ => ?_
  rw [scrAt_apply, weight_block m c t n k]

/-- An index of the result is in point t's block iff each coordinate is in the block's range. -/
theorem mem_blk (t : Fin cfg0.N) (i : S4096x4096.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v7).slice (win0_3.rect t)).set ↔ _
  rw [View.set_slice_whole, Rect.mem_set_unit]
  exact Iff.rfl

/-- The 128 output blocks tile the result: (p, q) lies in the block of point 16·(p / 512) + q / 256. -/
theorem cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 128 := N_0
  refine ⟨⟨16 * ((i 0).val / 512) + (i 1).val / 256, by omega⟩, flush0_3 _, ?_⟩
  rw [mem_blk]
  obtain ⟨-, -, -, -, -, -, e0, e1⟩ := idx_facts ⟨16 * ((i 0).val / 512) + (i 1).val / 256, by omega⟩
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 256 ≤ (i 1).val ∧ (i 1).val < win0_3.index _ (1 : Fin 2) * 256 + 256
    rw [e1]; dsimp only; omega

/-- THE RESULT ARRAY after the run. -/
theorem final (c : Dev nD) :
    (dats m 0 c).arrAt 3 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 3 (G (m ((c : Thread nD τ).loc main_arg0)) (m ((c : Thread nD τ).loc main_arg1)) (m ((c : Thread nD τ).loc main_arg2)) (m ((c : Thread nD τ).loc main_arg3))) (fun t _ => flushed_eq m c t) cover

/-- The kernel's run: every weakly fair execution ends with the result array at `G` of the arguments, which are
    unchanged. -/
theorem run : θ_run defs (onTc (τ := τ) (main (F := Ideal))) ⟨m, fun _ => 0, ρ⟩ fun r => ∀ c : Dev nD,
      r.2.mem ((c : Thread nD τ).loc main_v7) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.lean ====
/-
  A block-scaled matrix product: the kernel against its jnp reference, over the extended reals.

  Both programs take an activation x (4096 × 4096) with one scale per row and per block of 128 columns (4096 × 32), and a
  weight w (4096 × 4096) with one scale per block of 128 × 128 entries (32 × 32), and return

      y (m, n) = ∑ k, (x (m, k) · xs (m, k / 128)) · (w (n, k) · ws (n / 128, k / 128))          (`Spec.G`).

  The reference rescales both operands whole and contracts them once (`RefIsG.lean`). The kernel rescales the weight
  before its call, exactly as the reference does; inside the call, on an 8 × 16 grid walked row by row, it rescales a
  512-row block of the activation into a scratch buffer at the first point of each grid row, in 32 slabs of 128 columns
  (`Pieces.lean`: the slabs cover the scratch and each is the rescaled block on its columns), keeps the scratch for the
  other 15 points of the row, and at every point multiplies it by a 256-row block of the rescaled weight
  (`KernelValue.lean`: the scratch after any point, by induction on the point; the 128 output blocks tile the result).
  The two sums are the same sum term by term, in the same bracketing: no law of the extended reals beyond reading both
  sides at an index is used, and the precondition (finite inputs) is never opened. A change of float format is the
  identity on the extended reals, so the kernel's idealization rewrote nothing and there is nothing to preserve.
-/
import proofs.«110875_j2886218023303_2_alg».proof.Defs
import proofs.«110875_j2886218023303_2_alg».proof.Proof.Gen.Kernel
import proofs.«110875_j2886218023303_2_alg».proof.Proof.Gen.Kernel.Frame
import proofs.«110875_j2886218023303_2_alg».proof.Proof.Gen.KernelIdeal
import proofs.«110875_j2886218023303_2_alg».proof.Proof.Gen.KernelIdeal.Frame
import proofs.«110875_j2886218023303_2_alg».proof.Proof.Gen.KernelIdeal.Value
import proofs.«110875_j2886218023303_2_alg».proof.Proof.Gen.ReferenceIdeal
import proofs.«110875_j2886218023303_2_alg».proof.Proof.Gen.ReferenceIdeal.Run
import proofs.«110875_j2886218023303_2_alg».proof.Proof.Gen.ReferenceIdeal.Read
import proofs.«110875_j2886218023303_2_alg».proof.Proof.Gen.Pre_finite_inputs
import proofs.«110875_j2886218023303_2_alg».proof.Proof.RefIsG
import proofs.«110875_j2886218023303_2_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at `Spec.G` of those
    arguments: the kernel by `KernelValue.run`, the reference by its run and `RefValue.ref_eq`. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.RefValue.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
